-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) (main_arg1 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S2048x64 : Shape := ⟨2, ![2048, 64]⟩
abbrev S64x2048 : Shape := ⟨2, ![64, 2048]⟩
abbrev S2048x2048 : Shape := ⟨2, ![2048, 2048]⟩
abbrev S128x64 : Shape := ⟨2, ![128, 64]⟩
abbrev S64x256 : Shape := ⟨2, ![64, 256]⟩
abbrev S128x256 : Shape := ⟨2, ![128, 256]⟩
abbrev S128x64x1 : Shape := ⟨3, ![128, 64, 1]⟩
abbrev S1x64x256 : Shape := ⟨3, ![1, 64, 256]⟩
abbrev S128x64x256 : Shape := ⟨3, ![128, 64, 256]⟩

abbrev nBuf : Space → Nat
  | .hbm => 4
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S64x2048, .f32⟩
  | .hbm, ⟨3, _⟩ => ⟨S2048x2048, .f32⟩
  | .local _ .vmem, ⟨0, _⟩ => ⟨S128x64, .f32⟩
  | .local _ .vmem, ⟨1, _⟩ => ⟨S128x64, .f32⟩
  | .local _ .vmem, ⟨2, _⟩ => ⟨S64x256, .f32⟩
  | .local _ .vmem, ⟨3, _⟩ => ⟨S64x256, .f32⟩
  | .local _ .vmem, ⟨4, _⟩ => ⟨S128x256, .f32⟩
  | .local _ .vmem, ⟨5, _⟩ => ⟨S128x256, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2048x64_S64x2048_1_0 : S2048x64.Transposes [1, 0] S64x2048
  inb_S128x64_S128x64_0_0 : ∀ a, (![0, 0] : Fin 2 → Nat) a + S128x64.size a ≤ S128x64.size a
  h_S128x64 : 0 < S128x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S128x64_S128x64x1 : S128x64.ShapeCasts S128x64x1
  shapeCasts_S64x256_S1x64x256 : S64x256.ShapeCasts S1x64x256
  broadcasts_S128x64x1_S128x64x256 : S128x64x1.Broadcasts S128x64x256
  broadcasts_S1x64x256_S128x64x256 : S1x64x256.Broadcasts S128x64x256
  reduces_S128x64x256_S128x256 : S128x64x256.Reduces [1] S128x256
  inb_S128x256_S128x256_0_0 : ∀ a, (![0, 0] : Fin 2 → Nat) a + S128x256.size a ≤ S128x256.size a
  h_S128x256 : 0 < S128x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S2048x64.size a
  hwx0_0 : ∀ i : grid0.Coords, EltTy.bits .f32 = 32 ∨ (Rect.block (s := S2048x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x2048.size a
  hwx0_1 : ∀ i : grid0.Coords, EltTy.bits .f32 = 32 ∨ (Rect.block (s := S64x2048) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S2048x2048.size a
  hwx0_2 : ∀ i : grid0.Coords, EltTy.bits .f32 = 32 ∨ (Rect.block (s := S2048x2048) S128x256.size (cc0_transform_2 i) (hinb0_2 i)).WholeWords (EltTy.packing .f32)

variable [Facts₀]

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S_ : Shape := ⟨0, ![]⟩
abbrev S64 : Shape := ⟨1, ![64]⟩
abbrev S1x64 : Shape := ⟨2, ![1, 64]⟩
abbrev S2048x1x64 : Shape := ⟨3, ![2048, 1, 64]⟩
abbrev S1x2048x64 : Shape := ⟨3, ![1, 2048, 64]⟩
abbrev S2048x2048x64 : Shape := ⟨3, ![2048, 2048, 64]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S_, .f32⟩
  | .hbm, ⟨3, _⟩ => ⟨S64, .f32⟩
  | .hbm, ⟨4, _⟩ => ⟨S1x64, .f32⟩
  | .hbm, ⟨5, _⟩ => ⟨S_, .f32⟩
  | .hbm, ⟨6, _⟩ => ⟨S1x64, .f32⟩
  | .hbm, ⟨7, _⟩ => ⟨S1x64, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S2048x1x64, .f32⟩
  | .hbm, ⟨13, _⟩ => ⟨S1x2048x64, .f32⟩
  | .hbm, ⟨14, _⟩ => ⟨S2048x2048x64, .f32⟩
  | .hbm, ⟨15, _⟩ => ⟨S2048x2048x64, .f32⟩
  | .hbm, ⟨16, _⟩ => ⟨S2048x2048x64, .f32⟩
  | .hbm, ⟨17, _⟩ => ⟨S2048x2048x64, .f32⟩
  | .hbm, ⟨18, _⟩ => ⟨S_, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S2048x64_S64_d0 : S2048x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S2048x64_0_1 : S1x64.BroadcastsInDim S2048x64 (![0, 1] : Fin 2 → Fin S2048x64.rank)
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  bcast_S2048x1x64_S2048x2048x64_0_1_2 : S2048x1x64.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  reducesTo_S2048x2048x64_S2048x2048_d2 : S2048x2048x64.ReducesTo [2] S2048x2048
  bcast_S_S2048x2048 : S_.BroadcastsInDim S2048x2048 (![] : Fin 0 → Fin S2048x2048.rank)

variable [Facts₀]

class Facts : Prop extends Facts₀ where

variable [Facts]
-- ==== Proof.Finite.lean ====
/-
  FROM THE PRECONDITION TO REAL ENTRIES. The precondition says, of each of the two input arrays, that the absolute
  value of every entry is below `+∞`, all these comparisons joined by "and". An extended real whose absolute value
  `max x (−x)` is below `+∞` is neither `+∞` nor `−∞` (at `−∞` the absolute value is `+∞` too), so it is a real
  number. Hence: under the precondition every entry of both inputs is a real number.
-/
import proofs.«149633_j31739808318036_2_alg».proof.Pre_finite_inputs
import Idealize.ShloMosaic.Lib.ReduceAll
import Idealize.ShloMosaic.PureOps.Ideal
import Idealize.ShloMosaic.Lib.ValueIdx

noncomputable section

namespace Cert.L1.Finite

open Idealize.ShloMosaic Cert.Pre_finite_inputs

variable [Facts]

/-- The pattern `0x7F800000` denotes `+∞`. -/
theorem ofBits_inf : Ideal.ofBits .f32 0x7F800000#32 = (⊤ : EReal) := by simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison "below", when it answers 1, holds. -/
theorem lt_of_cmp_olt (a b : EReal) (h : Ideal.cmp .olt a b = 1#1) : a < b := by
  by_contra hc
  have h0 : Ideal.cmp .olt a b = 0#1 := by simp [Ideal.cmp, hc]
  rw [h0] at h
  exact absurd h (by decide)

/-- The result of the precondition has one index. -/
instance : Subsingleton S_.Idx := ⟨fun a b => funext fun d => d.elim0⟩

/-- UNDER THE PRECONDITION EVERY ENTRY OF BOTH INPUTS IS A REAL NUMBER. -/
theorem reals_of_pre (X Y : FVec Ideal S2048x64 .f32) (h : fn (F := Ideal) X Y = fun _ => 1#1) :
    (∀ i, ∃ r : ℝ, X i = (r : EReal)) ∧ (∀ i, ∃ r : ℝ, Y i = (r : EReal)) := by
  have h0 := congrFun h ValueIdx.ix0
  dsimp only [fn] at h0
  obtain ⟨hX, hY⟩ := IntOp.andi_eq_one.1 h0
  constructor
  · intro i
    have e := Host.reduce_andi_all _ _ _ _ _ hX i
    have e' : Ideal.cmp .olt (max (X i) (-(X i))) (Ideal.ofBits .f32 0x7F800000#32) = 1#1 := e
    rw [ofBits_inf] at e'
    exact real_of_abs_lt_top _ (lt_of_cmp_olt _ _ e')
  · intro i
    have e := Host.reduce_andi_all _ _ _ _ _ hY i
    have e' : Ideal.cmp .olt (max (Y i) (-(Y i))) (Ideal.ofBits .f32 0x7F800000#32) = 1#1 := e
    rw [ofBits_inf] at e'
    exact real_of_abs_lt_top _ (lt_of_cmp_olt _ _ e')

end Cert.L1.Finite

end
-- ==== Proof.Dist.lean ====
/-
  THE SPECIFICATION: the pairwise L1 distance of two families of 2048 points in 64 coordinates, and the two facts
  about extended reals that make a re-centred, clamped computation of it the same function.

  `dist X Y (i, j) = ∑ d, |X (i, d) − Y (j, d)|`, with `|z| = max z (−z)` on the extended reals.

  * RE-CENTRING CANCELS, for real numbers: `(x − r) − (y − r) = x − y`. On the extended reals this needs `r` (and
    `x`, `y`) to be real: at `r = +∞` the left side is `(−∞) − (−∞)`. This is where a precondition that the inputs
    are finite is used.
  * A SUM OF ABSOLUTE VALUES IS NOT NEGATIVE, on all extended reals, so adding it to `0` and clamping it below at `0`
    changes nothing.
-/
import Idealize.ShloMosaic.PureOps.Ideal
import Idealize.ShloMosaic.PureOps.Ideal.Laws
import Idealize.ShloMosaic.Lib.ValueIdx

noncomputable section

namespace Cert.L1

open Idealize.ShloMosaic Idealize.ShloMosaic.ValueIdx

/-- The shape of a family of points, one per row. -/
abbrev Pts : Shape := ⟨2, ![2048, 64]⟩
/-- The shape of the table of pairwise distances. -/
abbrev Tbl : Shape := ⟨2, ![2048, 2048]⟩

/-- The L1 distance between point `i` of `X` and point `j` of `Y`, for every pair `(i, j)`. -/
def dist (X Y : Pts.Idx → EReal) : Tbl.Idx → EReal := fun i =>
  ∑ d : Fin 64, max (X (ix2 (i 0) d) - Y (ix2 (i 1) d)) (-(X (ix2 (i 0) d) - Y (ix2 (i 1) d)))

theorem dist_apply (X Y : Pts.Idx → EReal) (a b : Fin 2048) :
    dist X Y (ix2 a b) = ∑ d : Fin 64, max (X (ix2 a d) - Y (ix2 b d)) (-(X (ix2 a d) - Y (ix2 b d))) := rfl

/-- An absolute value is not negative, at the infinities too. -/
theorem abs_nonneg (z : EReal) : 0 ≤ max z (-z) := by
  rcases le_total 0 z with h | h
  · exact le_max_of_le_left h
  · exact le_max_of_le_right (EReal.neg_nonneg.mpr h)

/-- So a sum of absolute values, added to `0` and clamped below at `0`, is itself. -/
theorem clamp_sum_abs {ι : Type} (s : Finset ι) (f : ι → EReal) :
    max (0 + ∑ d ∈ s, max (f d) (-(f d))) 0 = ∑ d ∈ s, max (f d) (-(f d)) := by
  rw [zero_add]
  exact max_eq_left (Finset.sum_nonneg fun d _ => abs_nonneg (f d))

/-- Re-centring both points by the same REAL number leaves their difference unchanged. -/
theorem recentre (x y r : ℝ) : ((x : EReal) - (r : EReal)) - ((y : EReal) - (r : EReal)) = (x : EReal) - (y : EReal) := by
  rw [← EReal.coe_sub, ← EReal.coe_sub, ← EReal.coe_sub, ← EReal.coe_sub]
  exact congrArg _ (by ring)

/-- A finite sum of real numbers, each read as an extended real, is the real sum read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- `2048.0` denotes the real number 2048. -/
theorem ofBits_2048 : Ideal.ofBits .f32 0x45000000#32 = ((2048 : ℝ) : EReal) := by
  simp [Ideal.ofBits, Ideal.ieee, -EReal.coe_mul]; norm_num

/-- THE MEAN OF REAL NUMBERS IS REAL: `0` plus a sum of 2048 reals, divided by `2048.0`, is a real number. -/
theorem mean_real {ι : Type} (s : Finset ι) (f : ι → ℝ) :
    ∃ r : ℝ, Ideal.div (Ideal.ofBits .f32 0x00000000#32 + ∑ k ∈ s, ((f k : ℝ) : EReal)) (Ideal.ofBits .f32 0x45000000#32)
      = (r : EReal) := by
  refine ⟨(∑ k ∈ s, f k) * (1 / 2048), ?_⟩
  rw [Ideal.ofBits_zero_f32, zero_add, coe_sum, ofBits_2048, Ideal.div_coe (by norm_num : (2048 : ℝ) ≠ 0), ← EReal.coe_mul]

end Cert.L1

end
-- ==== Proof.RefDist.lean ====
/-
  THE REFERENCE COMPUTES THE PAIRWISE L1 DISTANCE, when the entries of both inputs are real numbers.

  The reference first takes, per coordinate `d`, the mean `μ d = (0 + ∑ n, X (n, d)) / 2048` of the first family,
  subtracts it from both families, and only then forms `0 + ∑ d, |(X (i, d) − μ d) − (Y (j, d) − μ d)|`, clamped below
  at `0`. With real entries `μ d` is a real number, so the re-centring cancels inside every absolute value; and a sum
  of absolute values is not negative, so neither the `0 +` nor the clamp changes it. What is left is
  `∑ d, |X (i, d) − Y (j, d)|`.
-/
import proofs.«149633_j31739808318036_2_alg».proof.Proof.Gen.ReferenceIdeal.Read
import proofs.«149633_j31739808318036_2_alg».proof.Proof.Dist

noncomputable section

namespace Cert.ReferenceIdeal.RefDist

open Cert.ReferenceIdeal Cert.ReferenceIdeal.Gen Cert.ReferenceIdeal.Read
open Idealize.ShloMosaic Idealize.ShloMosaic.ValueIdx

/-- The mean of coordinate `d` over the 2048 points of `X`, as the reference computes it. -/
def mu (X : FVec Ideal S2048x64 .f32) (d : Fin 64) : EReal :=
  Ideal.div (Ideal.ofBits .f32 0x00000000#32 + ∑ n : Fin 2048, X (ix2 n d)) (Ideal.ofBits .f32 0x45000000#32)

/-- The row of means, read at coordinate `d`. -/
theorem mean_apply (X : FVec Ideal S2048x64 .f32) (u : Fin 1) (d : Fin 64) :
    val_main_v3 (F := Ideal) X (ix2 u d) = mu X d := by
  rw [val_main_v3_apply, val_main_v1_apply, val_main_v0_apply, val_main_v2_apply, val_main_cst_0_apply, val_main_cst_apply]
  have e : ∀ k : Fin 2048, idx_main_v0 (idx_main_v1 (ix2 u d)) k = ix2 k d := fun k =>
    funext fun ax => Fin.ext (by match ax with | ⟨0, _⟩ => rfl | ⟨1, _⟩ => rfl)
  simp only [e]
  rfl

/-- The first family re-centred, at `(n, d)`. -/
theorem centredX_apply (X : FVec Ideal S2048x64 .f32) (n : Fin 2048) (d : Fin 64) :
    val_main_v5 (F := Ideal) X (ix2 n d) = X (ix2 n d) - mu X d := by
  rw [val_main_v5_apply, val_main_v4_apply]
  have e : idx_main_v4 (ix2 n d) = ix2 (0 : Fin 1) d :=
    funext fun ax => Fin.ext (by match ax with | ⟨0, _⟩ => rfl | ⟨1, _⟩ => rfl)
  rw [e, mean_apply]
  rfl

/-- The second family re-centred by the FIRST family's means, at `(n, d)`. -/
theorem centredY_apply (X Y : FVec Ideal S2048x64 .f32) (n : Fin 2048) (d : Fin 64) :
    val_main_v7 (F := Ideal) X Y (ix2 n d) = Y (ix2 n d) - mu X d := by
  rw [val_main_v7_apply, val_main_v6_apply]
  have e : idx_main_v6 (ix2 n d) = ix2 (0 : Fin 1) d :=
    funext fun ax => Fin.ext (by match ax with | ⟨0, _⟩ => rfl | ⟨1, _⟩ => rfl)
  rw [e, mean_apply]
  rfl

/-- One term of the reference's sum: the absolute difference of the re-centred coordinates `d` of points `i`, `j`. -/
theorem term_apply (X Y : FVec Ideal S2048x64 .f32) (i j : Fin 2048) (d : Fin 64) :
    val_main_v13 (F := Ideal) X Y (ix3 i j d)
      = max ((X (ix2 i d) - mu X d) - (Y (ix2 j d) - mu X d)) (-((X (ix2 i d) - mu X d) - (Y (ix2 j d) - mu X d))) := by
  rw [val_main_v13_apply, val_main_v12_apply, val_main_v10_apply, val_main_v8_apply, val_main_v11_apply, val_main_v9_apply]
  have e8 : idx_main_v8 (idx_main_v10 (ix3 i j d)) = ix2 i d :=
    funext fun ax => Fin.ext (by match ax with | ⟨0, _⟩ => rfl | ⟨1, _⟩ => rfl)
  have e9 : idx_main_v9 (idx_main_v11 (ix3 i j d)) = ix2 j d :=
    funext fun ax => Fin.ext (by match ax with | ⟨0, _⟩ => rfl | ⟨1, _⟩ => rfl)
  rw [e8, e9, centredX_apply, centredY_apply]
  rfl

/-- THE REFERENCE'S RESULT IS THE PAIRWISE L1 DISTANCE of its two inputs, when their entries are real numbers. -/
theorem ref_eq_dist (X Y : FVec Ideal S2048x64 .f32) (hX : ∀ i, ∃ r : ℝ, X i = (r : EReal))
    (hY : ∀ i, ∃ r : ℝ, Y i = (r : EReal)) : val_main_v16 (F := Ideal) X Y = L1.dist X Y := by
  choose a ha using hX
  choose b hb using hY
  obtain rfl : X = fun i => ((a i : ℝ) : EReal) := funext ha
  obtain rfl : Y = fun i => ((b i : ℝ) : EReal) := funext hb
  funext i
  obtain ⟨p, q, rfl⟩ : ∃ (p q : Fin 2048), i = ix2 p q := ⟨i 0, i 1, eq_ix2 i⟩
  rw [val_main_v16_apply, val_main_v14_apply, val_main_v15_apply, val_main_cst_2_apply, val_main_cst_1_apply, L1.dist_apply]
  have hterm : ∀ d : Fin 64,
      val_main_v13 (F := Ideal) (fun i => ((a i : ℝ) : EReal)) (fun i => ((b i : ℝ) : EReal)) (idx_main_v14 (ix2 p q) d)
        = max (((a (ix2 p d) : ℝ) : EReal) - ((b (ix2 q d) : ℝ) : EReal))
            (-(((a (ix2 p d) : ℝ) : EReal) - ((b (ix2 q d) : ℝ) : EReal))) := by
    intro d
    have e14 : idx_main_v14 (ix2 p q) d = ix3 p q d :=
      funext fun ax => Fin.ext (by match ax with | ⟨0, _⟩ => rfl | ⟨1, _⟩ => rfl | ⟨2, _⟩ => rfl)
    obtain ⟨r, hr⟩ := L1.mean_real Finset.univ (fun n : Fin 2048 => a (ix2 n d))
    have hmu : mu (fun i => ((a i : ℝ) : EReal)) d = (r : EReal) := hr
    rw [e14, term_apply, hmu, L1.recentre]
  simp only [hterm]
  show max (Ideal.ofBits .f32 0x00000000#32 + _) (Ideal.ofBits .f32 0x00000000#32) = _
  rw [Ideal.ofBits_zero_f32]
  exact L1.clamp_sum_abs Finset.univ (fun d : Fin 64 => ((a (ix2 p d) : ℝ) : EReal) - ((b (ix2 q d) : ℝ) : EReal))

end Cert.ReferenceIdeal.RefDist

end
-- ==== Proof.LibOuterLayout.lean ====
/-
  The layout steps of an OUTER (pairwise) combination of two matrices, read at coordinates.
  To combine every row of a matrix `A : [a, b]` with every column of a matrix `B : [b, c]` entry by entry, `A` is
  given a trailing unit axis, `[a, b, 1]`, and repeated along it to `[a, b, c]`; `B` is given a leading unit axis,
  `[1, b, c]`, and repeated along it to `[a, b, c]`. At `(i, d, k)` the first then holds `A (i, d)` and the second
  `B (d, k)`. A sum of such a rank-3 array over its MIDDLE axis, read at `(i, k)`, is the sum over `d` of the
  entries `(i, d, k)`.
-/
import Idealize.ShloMosaic.Lib.ValueLayout
import Idealize.ShloMosaic.Lib.ValueIdx
import Idealize.ShloMosaic.PureOps.Ideal.Laws

noncomputable section

namespace Cert.LibOuterLayout

open Idealize.ShloMosaic Idealize.ShloMosaic.ValueIdx

variable {α : Type}

/-- A matrix `[a, b]` recast with a trailing unit axis, `[a, b, 1]`, reads at `(i, j, u)` the matrix at `(i, j)`:
    the row-major position of `(i, j, u)` in `[a, b, 1]` is `(i · b + j) · 1 + 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An array `[a, b, 1]` repeated along its unit axis to `[a, b, c]` reads at `(i, j, k)` its entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An array `[1, b, c]` repeated along its unit axis to `[a, b, c]` reads at `(i, j, k)` its entry `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- So the rows of `A : [a, b]`, recast and repeated to `[a, b, c]`, read at `(i, d, k)` the entry `A (i, d)`. -/
theorem rows_apply {a b c : ℕ} (A : (⟨2, ![a, b]⟩ : Shape).Idx → α)
    (h₁ : (⟨2, ![a, b]⟩ : Shape).ShapeCasts ⟨3, ![a, b, 1]⟩) (h₂ : (⟨3, ![a, b, 1]⟩ : Shape).Broadcasts ⟨3, ![a, b, c]⟩)
    (i : Fin a) (d : Fin b) (k : Fin c) :
    broadcastTo ⟨3, ![a, b, c]⟩ (shapeCast ⟨3, ![a, b, 1]⟩ A h₁) h₂ (ix3 i d k) = A (ix2 i d) :=
  (broadcastTo_ab1_abc_apply _ h₂ i d k).trans (shapeCast_ab_ab1_apply A h₁ i d 0)

/-- And the columns of `B : [b, c]`, recast and repeated to `[a, b, c]`, read at `(i, d, k)` the entry `B (d, k)`. -/
theorem cols_apply {a b c : ℕ} (B : (⟨2, ![b, c]⟩ : Shape).Idx → α)
    (h₁ : (⟨2, ![b, c]⟩ : Shape).ShapeCasts ⟨3, ![1, b, c]⟩) (h₂ : (⟨3, ![1, b, c]⟩ : Shape).Broadcasts ⟨3, ![a, b, c]⟩)
    (i : Fin a) (d : Fin b) (k : Fin c) :
    broadcastTo ⟨3, ![a, b, c]⟩ (shapeCast ⟨3, ![1, b, c]⟩ B h₁) h₂ (ix3 i d k) = B (ix2 d k) :=
  (broadcastTo_1bc_abc_apply _ h₂ i d k).trans (shapeCast_ab_1ab_apply B h₁ 0 d k)

end Cert.LibOuterLayout

end
-- ==== Proof.Body.lean ====
/-
  What the kernel body computes from its two loaded blocks, entry by entry, at the ideal values.
  The body holds a block `A : [128, 64]` of points (one point per row) and a block `B : [64, 256]` of points laid
  out one point per COLUMN. It repeats `A` along a new last axis and `B` along a new first axis, to `[128, 64, 256]`,
  subtracts, takes absolute values and sums over the middle axis. So its result at `(p, q)` is
      ∑ d, |A (p, d) − B (d, q)|,
  the L1 distance between row `p` of `A` and column `q` of `B`. (On the extended reals `|z|` is `max z (−z)`.)
-/
import proofs.«149633_j31739808318036_2_alg».proof.Proof.Gen.KernelIdeal.Skeleton
import proofs.«149633_j31739808318036_2_alg».proof.Proof.LibOuterLayout
import Idealize.ShloMosaic.PureOps.Ideal.Laws
import Idealize.ShloMosaic.Lib.ValueIdx

noncomputable section

namespace Cert.KernelIdeal.Body

open Cert.KernelIdeal Cert.KernelIdeal.Gen Idealize.ShloMosaic Idealize.ShloMosaic.ValueIdx
/-- The sum of a `[128, 64, 256]` array over its middle axis, read at `(p, q)`, is the sum over `d` of its entries
    `(p, d, q)`: the reduced index `(p, q)` with the coordinate `d` put back in the middle. -/
theorem sum_middle (src : FVec Ideal S128x64x256 .f32) (h : S128x64x256.Reduces [1] S128x256) (hφ : FKind.Formats .f32)
    (hacc : (0x00000000#32 : BitVec 32) = FKind.add.neutral .f32 hφ) (p : Fin 128) (q : Fin 256) :
    multiReduction .add [1] S128x256 src 0x00000000#32 h hφ hacc (ix2 p q) = ∑ d : Fin 64, src (ix3 p d q) :=
  (Ideal.multiReduction_add_single src 0x00000000#32 h hφ hacc (ix2 p q)).trans
    (Finset.sum_congr rfl fun d _ => congrArg src (funext fun a => Fin.ext (by
      match a with | ⟨0, _⟩ => rfl | ⟨1, _⟩ => rfl | ⟨2, _⟩ => rfl)))

/-- The absolute difference of two arrays, read at an index. -/
theorem abs_sub_apply {s : Shape} (U W : FVec Ideal s .f32) (i : s.Idx) :
    absf (subf U W) i = max (U i - W i) (-(U i - W i)) := rfl

/-- THE BODY'S RESULT AT `(p, q)`: the L1 distance between row `p` of the first block and column `q` of the second. -/
theorem pay_apply (A : FVec Ideal S128x64 .f32) (B : FVec Ideal S64x256 .f32) (p : Fin 128) (q : Fin 256) :
    k0_pay1 (F := Ideal) A B (ix2 p q)
      = ∑ d : Fin 64, max (A (ix2 p d) - B (ix2 d q)) (-(A (ix2 p d) - B (ix2 d q))) := by
  unfold k0_pay1
  dsimp only
  refine (sum_middle _ _ _ _ p q).trans (Finset.sum_congr rfl fun d _ => ?_)
  have eA := LibOuterLayout.rows_apply A Facts₀.shapeCasts_S128x64_S128x64x1 Facts₀.broadcasts_S128x64x1_S128x64x256 p d q
  have eB := LibOuterLayout.cols_apply (shapeCast S64x256 B Facts₀.shapeCasts_S64x256_S64x256)
    Facts₀.shapeCasts_S64x256_S1x64x256 Facts₀.broadcasts_S1x64x256_S128x64x256 p d q
  exact (abs_sub_apply _ _ _).trans (by rw [eA, eB, shapeCast_self])

end Cert.KernelIdeal.Body

end
-- ==== Proof.KernelDist.lean ====
/-
  THE KERNEL LEAVES THE PAIRWISE L1 DISTANCE IN ITS RESULT ARRAY.

  The table `[2048, 2048]` is cut into 16 × 8 blocks of `[128, 256]`. At the grid point whose block is `(I, J)` the
  body is given rows `128·I … 128·I + 127` of the first family, and — the second family having been transposed
  before the region, one point per column — columns `256·J … 256·J + 255` of the transposed second family. The body
  forms the L1 distance between each of its rows and each of its columns (the body's own reading), so entry
  `(p, q)` of what it writes back is the distance between point `128·I + p` of the first family and point
  `256·J + q` of the second: exactly block `(I, J)` of the table of all pairwise distances. Every entry of the table
  lies in one of the blocks (entry `(r, s)` in block `(r / 128, s / 256)`), so after the run the whole result array is
  that table.
-/
import proofs.«149633_j31739808318036_2_alg».proof.Proof.Gen.KernelIdeal.Value
import proofs.«149633_j31739808318036_2_alg».proof.Proof.Body
import proofs.«149633_j31739808318036_2_alg».proof.Proof.Dist
import Idealize.ShloMosaic.Lib.ValueLayout
import Idealize.ShloMosaic.Lib.StableHlo.Run

noncomputable section

namespace Cert.KernelIdeal.KernelDist

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The table of pairwise L1 distances of the two argument arrays as launched. -/
abbrev table (c : Dev nD) : S2048x2048.Idx → EReal :=
  L1.dist (m ((c : Thread nD τ).loc main_arg0)) (m ((c : Thread nD τ).loc main_arg1))

theorem hz : (![0, 0] : Fin 2 → Nat) = fun _ => 0 := funext fun a => by fin_cases a <;> rfl

/-- The array the second window stages, as the region finds it, is the second argument transposed. -/
theorem V_main_v0 (c : Dev nD) :
    (V m c main_v0 : S64x2048.Idx → EReal)
      = transpose S64x2048 [1, 0] (m ((c : Thread nD τ).loc main_arg1)) Facts₀.transposes_S2048x64_S64x2048_1_0 := by
  dsimp only [Gen.V, Gen.hostOps0]; after_results

/-- ONE ENTRY OF ONE BLOCK: if row `p` of the block `A` is point `r` of `X` and column `q` of the block `B` is point
    `s` of `Y`, the body's result at `(p, q)` is the distance between those two points. -/
theorem entry_eq (X Y : FVec Ideal S2048x64 .f32) (A : FVec Ideal S128x64 .f32) (B : FVec Ideal S64x256 .f32)
    (p : Fin 128) (q : Fin 256) (r s : Fin 2048)
    (hA : ∀ d : Fin 64, A (ix2 p d) = X (ix2 r d)) (hB : ∀ d : Fin 64, B (ix2 d q) = Y (ix2 s d)) :
    k0_pay1 (F := Ideal) A B (ix2 p q) = L1.dist X Y (ix2 r s) := by
  rw [Body.pay_apply, L1.dist_apply]
  exact Finset.sum_congr rfl fun d _ => by rw [hA d, hB d]

/-- The printed index maps, decided over the 128 grid points: the first window moves with the output's block row
    and stays at column block 0; the second stays at row block 0 and moves with the output's block column; the
    output's block indices stay inside 16 × 8. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 15 ∧ win0_2.index t (1 : Fin 2) ≤ 7 :=
  (by decide +kernel : ∀ t : Fin grid0.N, _)

/-- Every block of the 16 × 8 cut is some grid point's. -/
theorem idx_onto : ∀ (I : Fin 16) (J : Fin 8), ∃ t : Fin cfg0.N, win0_2.index t = ![I.val, J.val] :=
  (by decide +kernel : ∀ (I : Fin 16) (J : Fin 8), ∃ t : Fin grid0.N, win0_2.index t = ![I.val, J.val])

/-- WHAT POINT `t` WRITES BACK is block `t` of the table of pairwise distances. -/
theorem flushed_eq (c : Dev nD) (t : Fin cfg0.N) :
    (dats m 0 c).flushed 2 t = ((cfg0.win 2).blk t).view.read (Elt Ideal) (table m c) := by
  rw [Value.flushed2]
  unfold out0_2
  rw [View.canon_unit_zero hz]
  simp only [View.ld_unit_zero (S := S128x64) hz, View.ld_unit_zero (S := S64x256) hz]
  obtain ⟨e0, e1, e2, e3, b0, b1⟩ := idx_facts t
  funext y
  obtain ⟨p, q, rfl⟩ : ∃ (p : Fin 128) (q : Fin 256), y = ix2 p q := ⟨y 0, y 1, eq_ix2 y⟩
  have hr : win0_2.index t (0 : Fin 2) * 128 + p.val < 2048 := by have := p.isLt; omega
  have hs : win0_2.index t (1 : Fin 2) * 256 + q.val < 2048 := by have := q.isLt; omega
  have hemb : ((cfg0.win 2).blk t).view.emb (ix2 p q)
      = ix2 (⟨win0_2.index t (0 : Fin 2) * 128 + p.val, hr⟩ : Fin 2048) (⟨win0_2.index t (1 : Fin 2) * 256 + q.val, hs⟩ : Fin 2048) := by
    funext a; apply Fin.ext
    match a with
    | ⟨0, _⟩ => show win0_2.index t (0 : Fin 2) * 128 + 1 * p.val = win0_2.index t (0 : Fin 2) * 128 + p.val; omega
    | ⟨1, _⟩ => show win0_2.index t (1 : Fin 2) * 256 + 1 * q.val = win0_2.index t (1 : Fin 2) * 256 + q.val; omega
  show k0_pay1 (iblk m c 0 t) (iblk m c 1 t) (ix2 p q) = table m c (((cfg0.win 2).blk t).view.emb (ix2 p q))
  rw [hemb]
  refine entry_eq (m ((c : Thread nD τ).loc main_arg0)) (m ((c : Thread nD τ).loc main_arg1)) (iblk m c 0 t) (iblk m c 1 t)
    p q ⟨win0_2.index t (0 : Fin 2) * 128 + p.val, hr⟩ ⟨win0_2.index t (1 : Fin 2) * 256 + q.val, hs⟩ ?_ ?_
  · intro d
    show V m c main_arg0 (((cfg0.win 0).blk t).view.emb (ix2 p d)) = _
    rw [V_main_arg0]
    refine congrArg _ (funext fun a => Fin.ext ?_)
    match a with
    | ⟨0, _⟩ => show win0_0.index t (0 : Fin 2) * 128 + 1 * p.val = win0_2.index t (0 : Fin 2) * 128 + p.val; omega
    | ⟨1, _⟩ => show win0_0.index t (1 : Fin 2) * 64 + 1 * d.val = d.val; omega
  · intro d
    show V m c main_v0 (((cfg0.win 1).blk t).view.emb (ix2 d q)) = _
    have he : ((cfg0.win 1).blk t).view.emb (ix2 d q)
        = ix2 d (⟨win0_2.index t (1 : Fin 2) * 256 + q.val, hs⟩ : Fin 2048) := by
      funext a; apply Fin.ext
      match a with
      | ⟨0, _⟩ => show win0_1.index t (0 : Fin 2) * 64 + 1 * d.val = d.val; omega
      | ⟨1, _⟩ => show win0_1.index t (1 : Fin 2) * 256 + 1 * q.val = win0_2.index t (1 : Fin 2) * 256 + q.val; omega
    rw [he, V_main_v0]
    exact transpose_ix2_apply _ _ _ _

/-- An index of the table is in point `t`'s block iff each coordinate is in the block's range on its axis. -/
theorem mem_blk (t : Fin cfg0.N) (i : S2048x2048.Idx) :
    i ∈ ((cfg0.win 2).blk t).view.set ↔ ∀ a : Fin 2, win0_2.index t a * S128x256.size a ≤ (i a).val
      ∧ (i a).val < win0_2.index t a * S128x256.size a + S128x256.size a := by
  show i ∈ ((View.whole main_v1).slice (win0_2.rect t)).set ↔ _
  rw [View.set_slice_whole, Rect.mem_set_unit]
  exact Iff.rfl

/-- THE BLOCKS COVER THE TABLE: entry `(r, s)` lies in block `(r / 128, s / 256)`. -/
theorem cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := idx_onto ⟨(i 0).val / 128, by omega⟩ ⟨(i 1).val / 256, by omega⟩
  have q0 : win0_2.index t (0 : Fin 2) = (i 0).val / 128 := congrFun ht 0
  have q1 : win0_2.index t (1 : Fin 2) = (i 1).val / 256 := congrFun ht 1
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 256 ≤ (i 1).val ∧ (i 1).val < win0_2.index t (1 : Fin 2) * 256 + 256
    omega

/-- THE RESULT ARRAY AFTER THE RUN is the table of pairwise distances. -/
theorem final (c : Dev nD) : (dats m 0 c).arrAt 2 cfg0.N = table m c :=
  (dats m 0 c).arrAt_eq_of_cover 2 (table m c) (fun t _ => flushed_eq m c t) cover

/-- The kernel's run, read: the result array ends at the table of pairwise distances, the arguments unchanged. -/
theorem run : θ_run defs (onTc (τ := τ) (main (F := Ideal))) ⟨m, fun _ => 0, ρ⟩ fun r => ∀ c : Dev nD,
      r.2.mem ((c : Thread nD τ).loc main_v1) = table m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelDist

end
-- ==== Proof.lean ====
/-
  PAIRWISE L1 DISTANCE: a tiled kernel against a re-centred, clamped reference, equal on the extended reals when the
  inputs are finite.

  Two families of 2048 points in 64 coordinates, `X` and `Y`. The kernel transposes `Y`, cuts the `[2048, 2048]`
  table into 16 × 8 blocks of `[128, 256]`, and in each block sums `|X (i, d) − Y (j, d)|` over `d`. The reference
  subtracts from both families the coordinate-wise mean of `X`, sums `|(X (i, d) − μ d) − (Y (j, d) − μ d)|` over `d`
  starting from `0`, and clamps the result below at `0`.

  Both are the table `dist X Y (i, j) = ∑ d, |X (i, d) − Y (j, d)|`:
  * the kernel, on every extended real: each block it writes back is the block of that table, and the blocks cover it;
  * the reference, when every entry is a real number: then each mean `μ d` is a real number and
    `(x − μ) − (y − μ) = x − y`; a sum of absolute values is not negative, so `0 +` and the clamp change nothing.
    At an infinite entry the cancellation fails (`(+∞) − (+∞)`), so the precondition — every entry of both inputs has
    absolute value below `+∞` — is used, and it is used exactly there.

  The three frames are the generated ones (the reference's is its generated run with the result dropped); the
  idealization rewrote no operation, so there is nothing to preserve.
-/
import proofs.«149633_j31739808318036_2_alg».proof.Defs
import proofs.«149633_j31739808318036_2_alg».proof.Proof.Gen.Kernel
import proofs.«149633_j31739808318036_2_alg».proof.Proof.Gen.Kernel.Skeleton
import proofs.«149633_j31739808318036_2_alg».proof.Proof.Gen.Kernel.Launch
import proofs.«149633_j31739808318036_2_alg».proof.Proof.Gen.Kernel.Points
import proofs.«149633_j31739808318036_2_alg».proof.Proof.Gen.Kernel.Frame
import proofs.«149633_j31739808318036_2_alg».proof.Proof.Gen.KernelIdeal
import proofs.«149633_j31739808318036_2_alg».proof.Proof.Gen.KernelIdeal.Skeleton
import proofs.«149633_j31739808318036_2_alg».proof.Proof.Gen.KernelIdeal.Launch
import proofs.«149633_j31739808318036_2_alg».proof.Proof.Gen.KernelIdeal.Points
import proofs.«149633_j31739808318036_2_alg».proof.Proof.Gen.KernelIdeal.Frame
import proofs.«149633_j31739808318036_2_alg».proof.Proof.Gen.ReferenceIdeal
import proofs.«149633_j31739808318036_2_alg».proof.Proof.Gen.Pre_finite_inputs
import proofs.«149633_j31739808318036_2_alg».proof.Proof.Gen.KernelIdeal.Value
import proofs.«149633_j31739808318036_2_alg».proof.Proof.Gen.ReferenceIdeal.Run
import proofs.«149633_j31739808318036_2_alg».proof.Proof.Gen.ReferenceIdeal.Read
import proofs.«149633_j31739808318036_2_alg».proof.Proof.Finite
import proofs.«149633_j31739808318036_2_alg».proof.Proof.RefDist
import proofs.«149633_j31739808318036_2_alg».proof.Proof.KernelDist
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two inputs, both finite, the kernel and the reference end with the same table:
    the pairwise L1 distances of the inputs. -/
theorem algebraic : Cert.algebraic_KernelIdeal_ReferenceIdeal := by
  intro m ρ m' ρ' hpre hagree
  refine ⟨fun c => Cert.KernelIdeal.KernelDist.table m c, Cert.KernelIdeal.KernelDist.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hY⟩ := Cert.L1.Finite.reals_of_pre _ _ (hpre c)
  rw [(hagree c).1, (hagree c).2]
  exact (Cert.ReferenceIdeal.Read.val_main_v16_eq _ _).trans (Cert.ReferenceIdeal.RefDist.ref_eq_dist _ _ hX hY)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
